-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x32x128 : Shape := ⟨4, ![8, 4096, 32, 128]⟩
abbrev S8x1x32x128 : Shape := ⟨4, ![8, 1, 32, 128]⟩
abbrev S_ : Shape := ⟨0, ![]⟩

class Facts : Prop where
  bcast_S_S8x4096x32x128 : S_.BroadcastsInDim S8x4096x32x128 (![] : Fin 0 → Fin S8x4096x32x128.rank)
  reducesTo_S8x4096x32x128_S_d0_1_2_3 : S8x4096x32x128.ReducesTo [0, 1, 2, 3] S_
  h_S_ : 0 < S_.numel
  bcast_S_S8x1x32x128 : S_.BroadcastsInDim S8x1x32x128 (![] : Fin 0 → Fin S8x1x32x128.rank)
  reducesTo_S8x1x32x128_S_d0_1_2_3 : S8x1x32x128.ReducesTo [0, 1, 2, 3] S_

variable [Facts]

def fn_part1 {F : FTy → Type} [FloatOps F] (main_v13 : IVec S_ 1) (main_v16 : IVec S8x1x32x128 1) : IVec S_ 1 :=
  let main_c_5 : IVec S_ 1 := constantI S_ 1 1#1
  let main_v17 : IVec S_ 1 := (fun x v => Host.reduce IntOp.andi x v reducesTo_S8x1x32x128_S_d0_1_2_3 h_S_) main_v16 main_c_5
  let main_v18 : IVec S_ 1 := andi main_v13 main_v17
  main_v18

def fn {F : FTy → Type} [FloatOps F] (main_arg0 : FVec F S8x4096x32x128 .f32) (main_arg1 : FVec F S8x4096x32x128 .f32) (main_arg2 : FVec F S8x1x32x128 .f32) (main_arg3 : FVec F S8x1x32x128 .f32) : IVec S_ 1 :=
  let main_v0 : FVec F S8x4096x32x128 .f32 := Host.absf main_arg0
  let main_cst : FVec F S_ .f32 := constant S_ .f32 0x7F800000#32
  let main_v1 : FVec F S8x4096x32x128 .f32 := broadcastInDim S8x4096x32x128 ![] bcast_S_S8x4096x32x128 main_cst
  let main_v2 : IVec S8x4096x32x128 1 := cmpf .olt main_v0 main_v1
  let main_c : IVec S_ 1 := constantI S_ 1 1#1
  let main_v3 : IVec S_ 1 := (fun x v => Host.reduce IntOp.andi x v reducesTo_S8x4096x32x128_S_d0_1_2_3 h_S_) main_v2 main_c
  let main_v4 : FVec F S8x4096x32x128 .f32 := Host.absf main_arg1
  let main_cst_0 : FVec F S_ .f32 := constant S_ .f32 0x7F800000#32
  let main_v5 : FVec F S8x4096x32x128 .f32 := broadcastInDim S8x4096x32x128 ![] bcast_S_S8x4096x32x128 main_cst_0
  let main_v6 : IVec S8x4096x32x128 1 := cmpf .olt main_v4 main_v5
  let main_c_1 : IVec S_ 1 := constantI S_ 1 1#1
  let main_v7 : IVec S_ 1 := (fun x v => Host.reduce IntOp.andi x v reducesTo_S8x4096x32x128_S_d0_1_2_3 h_S_) main_v6 main_c_1
  let main_v8 : IVec S_ 1 := andi main_v3 main_v7
  let main_v9 : FVec F S8x1x32x128 .f32 := Host.absf main_arg2
  let main_cst_2 : FVec F S_ .f32 := constant S_ .f32 0x7F800000#32
  let main_v10 : FVec F S8x1x32x128 .f32 := broadcastInDim S8x1x32x128 ![] bcast_S_S8x1x32x128 main_cst_2
  let main_v11 : IVec S8x1x32x128 1 := cmpf .olt main_v9 main_v10
  let main_c_3 : IVec S_ 1 := constantI S_ 1 1#1
  let main_v12 : IVec S_ 1 := (fun x v => Host.reduce IntOp.andi x v reducesTo_S8x1x32x128_S_d0_1_2_3 h_S_) main_v11 main_c_3
  let main_v13 : IVec S_ 1 := andi main_v8 main_v12
  let main_v14 : FVec F S8x1x32x128 .f32 := Host.absf main_arg3
  let main_cst_4 : FVec F S_ .f32 := constant S_ .f32 0x7F800000#32
  let main_v15 : FVec F S8x1x32x128 .f32 := broadcastInDim S8x1x32x128 ![] bcast_S_S8x1x32x128 main_cst_4
  let main_v16 : IVec S8x1x32x128 1 := cmpf .olt main_v14 main_v15
  fn_part1 (F := F) main_v13 main_v16
-- ==== Kernel.lean ====
abbrev S8x4096x32x128 : Shape := ⟨4, ![8, 4096, 32, 128]⟩
abbrev S8x1x32x128 : Shape := ⟨4, ![8, 1, 32, 128]⟩
abbrev S8x4097x32x128 : Shape := ⟨4, ![8, 4097, 32, 128]⟩
abbrev S_ : Shape := ⟨0, ![]⟩
abbrev S1x256x32x128 : Shape := ⟨4, ![1, 256, 32, 128]⟩

abbrev nBuf : Space → Nat
  | .hbm => 16
  | .vmem => 8
  | .smem => 0
  | _ => 0

abbrev bufTy : (tb : Table) → Fin (tcTables nBuf tb) → BufTy
  | .hbm, ⟨0, _⟩ => ⟨S8x4096x32x128, .f32⟩
  | .hbm, ⟨1, _⟩ => ⟨S8x4096x32x128, .f32⟩
  | .hbm, ⟨2, _⟩ => ⟨S8x1x32x128, .f32⟩
  | .hbm, ⟨3, _⟩ => ⟨S8x1x32x128, .f32⟩
  | .hbm, ⟨4, _⟩ => ⟨S8x4097x32x128, .f32⟩
  | .hbm, ⟨5, _⟩ => ⟨S8x4097x32x128, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8x4097x32x128, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S8x4097x32x128, .f32⟩
  | .local _ .vmem, ⟨0, _⟩ => ⟨S1x256x32x128, .f32⟩
  | .local _ .vmem, ⟨1, _⟩ => ⟨S1x256x32x128, .f32⟩
  | .local _ .vmem, ⟨2, _⟩ => ⟨S1x256x32x128, .f32⟩
  | .local _ .vmem, ⟨3, _⟩ => ⟨S1x256x32x128, .f32⟩
  | .local _ .vmem, ⟨4, _⟩ => ⟨S1x256x32x128, .f32⟩
  | .local _ .vmem, ⟨5, _⟩ => ⟨S1x256x32x128, .f32⟩
  | .local _ .vmem, ⟨6, _⟩ => ⟨S1x256x32x128, .f32⟩
  | .local _ .vmem, ⟨7, _⟩ => ⟨S1x256x32x128, .f32⟩
  | _, _ => ⟨S8x4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_call0_v0_1 : Ref sig .tc := ⟨.hbm, 5, rfl⟩
abbrev main_call0_c : Ref sig .tc := ⟨.hbm, 6, rfl⟩
abbrev main_call0_c_0 : Ref sig .tc := ⟨.hbm, 7, rfl⟩
abbrev main_call0_c_1 : Ref sig .tc := ⟨.hbm, 8, rfl⟩
abbrev main_call0_c_2 : Ref sig .tc := ⟨.hbm, 9, rfl⟩
abbrev main_v0_0 : Ref sig .tc := ⟨.hbm, 10, rfl⟩
abbrev main_call0_c_3 : Ref sig .tc := ⟨.hbm, 11, rfl⟩
abbrev main_call0_c_4 : Ref sig .tc := ⟨.hbm, 12, rfl⟩
abbrev main_call0_c_5 : Ref sig .tc := ⟨.hbm, 13, rfl⟩
abbrev main_call0_c_6 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  updateFits_S8x4097x32x128_S8x1x32x128 : S8x4097x32x128.Slices (fun _ => 0) S8x1x32x128
  h_S_ : 0 < S_.numel
  inb_S1x256x32x128_S1x256x32x128_0_0_0_0 : ∀ a, (![0, 0, 0, 0] : Fin 4 → Nat) a + S1x256x32x128.size a ≤ S1x256x32x128.size a
  h_S1x256x32x128 : 0 < S1x256x32x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x32x128.size a ≤ S8x4096x32x128.size a
  hwx0_0 : ∀ i : grid0.Coords, EltTy.bits .f32 = 32 ∨ (Rect.block (s := S8x4096x32x128) S1x256x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x32x128.size a ≤ S8x4096x32x128.size a
  hwx0_1 : ∀ i : grid0.Coords, EltTy.bits .f32 = 32 ∨ (Rect.block (s := S8x4096x32x128) S1x256x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x256x32x128.size a < S8x4097x32x128.size a
  hwx0_2 : ∀ i : grid0.Coords, EltTy.bits .f32 = 32 ∨ (Rect.unit (s := S8x4097x32x128) (fun a => cc0_transform_2 i a * S1x256x32x128.size a) (fun a => (Pipeline.Clip.of (cc0_transform_2 i a) (S1x256x32x128.size a) (S8x4097x32x128.size a)).extent (S1x256x32x128.size a)) fun a => Pipeline.Clip.inb (Pipeline.Clip.ok_of (hstart0_2 i a))).WholeWords (EltTy.packing .f32)
  hwxs0_2 : ∀ i : grid0.Coords, EltTy.bits .f32 = 32 ∨ (Rect.unit (s := S1x256x32x128) (fun _ => 0) (fun a => (Pipeline.Clip.of (cc0_transform_2 i a) (S1x256x32x128.size a) (S8x4097x32x128.size a)).extent (S1x256x32x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x256x32x128.size a < S8x4097x32x128.size a
  hwx0_3 : ∀ i : grid0.Coords, EltTy.bits .f32 = 32 ∨ (Rect.unit (s := S8x4097x32x128) (fun a => cc0_transform_3 i a * S1x256x32x128.size a) (fun a => (Pipeline.Clip.of (cc0_transform_3 i a) (S1x256x32x128.size a) (S8x4097x32x128.size a)).extent (S1x256x32x128.size a)) fun a => Pipeline.Clip.inb (Pipeline.Clip.ok_of (hstart0_3 i a))).WholeWords (EltTy.packing .f32)
  hwxs0_3 : ∀ i : grid0.Coords, EltTy.bits .f32 = 32 ∨ (Rect.unit (s := S1x256x32x128) (fun _ => 0) (fun a => (Pipeline.Clip.of (cc0_transform_3 i a) (S1x256x32x128.size a) (S8x4097x32x128.size a)).extent (S1x256x32x128.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpec (Memref.whole main_arg0) S1x256x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpecClip (Memref.whole main_call0_v0_0) S1x256x32x128.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_call0_v0_1) S1x256x32x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x32x128 : Shape := ⟨4, ![8, 4096, 32, 128]⟩
abbrev S8x1x32x128 : Shape := ⟨4, ![8, 1, 32, 128]⟩
abbrev S8x4097x32x128 : Shape := ⟨4, ![8, 4097, 32, 128]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x32x128, .f32⟩
  | .hbm, ⟨1, _⟩ => ⟨S8x4096x32x128, .f32⟩
  | .hbm, ⟨2, _⟩ => ⟨S8x1x32x128, .f32⟩
  | .hbm, ⟨3, _⟩ => ⟨S8x1x32x128, .f32⟩
  | .hbm, ⟨4, _⟩ => ⟨S8x4097x32x128, .f32⟩
  | .hbm, ⟨5, _⟩ => ⟨S8x4097x32x128, .f32⟩
  | _, _ => ⟨S8x4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  concatenates_S8x4096x32x128_S8x1x32x128_S8x4097x32x128_d1 : Shape.Concatenates [S8x4096x32x128, S8x1x32x128] S8x4097x32x128 1

variable [Facts₀]

class Facts : Prop extends Facts₀ where

variable [Facts]
-- ==== Proof.FrameK.lean ====
/-
  The frame run of the kernel's program as printed, at any float interpretation.

  The program is one pallas_call followed by ten host operations. The call walks a grid of 8 x 16 points; at point
  (b, i) it stages rows 256 i .. 256 i + 255 of batch b of each of the two caches (a block of shape
  [1, 256, 32, 128]), and its body copies each staged block, whole, into the staging buffer of the matching result,
  which is then written back to the same rows of the result array [8, 4097, 32, 128]. The sixteen blocks of a batch
  are rows 0 .. 4095: row 4096 of a result array is never written by the call. The host operations that follow
  build four index scalars per result and overwrite the slice [0:8, 4096:4097, :, :] with the new row.

  Proved here: what the body leaves (each result's buffer holds the cache's block, the inputs' buffers keep theirs);
  the proof data of the pipeline; the body obligation at every point; and the run of the whole program, which ends
  with every array of the pipeline at what the write-backs leave and every other buffer as the trailing host
  operations leave it. The four argument arrays end as launched.
-/
import proofs.«176095_j45861660787371_2_alg».proof.Proof.Gen.Kernel.Launch
import proofs.«176095_j45861660787371_2_alg».proof.Proof.Gen.Kernel.Skeleton
import proofs.«176095_j45861660787371_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Copy

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program is the call followed by the trailing host operations -/

/-- What core c's buffers hold when the call is entered: no host operation comes before it, so the launch
    contents (written as the fold of the empty list of operations, the form the library's lemma concludes). -/
abbrev entry (c : Dev nD) : Valuation τ sig (Elt F) :=
  StableHlo.after (List.flatten ([] : List (List (HloOp τ sig (Elt F))))) (fun b => m (c, b))
/-- The same, read at a TensorCore reference. -/
abbrev entryAt (c : Dev nD) (b : Ref sig .tc) : Buf (Elt F) ((c : Thread nD τ).loc b) := entry m c (Proc.devRef .tc b)

/-- The trailing operations allocate nothing. -/
theorem tail_fresh : (hostOps1 : List (HloOp τ sig (Elt F))).Forall fun op => op.fresh = ∅ := by
  simp only [List.Forall]; repeat' constructor

/-- The program reduces to the call continued by the trailing operations. -/
theorem call_then_tail (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] trivial trivial main_chain

/-- The trailing operations touch only the pipeline's arrays and the buffers that bypass it. -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- None of them writes an array of the pipeline: each index scalar and each updated array is a buffer of its own. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.binaryIndexed_writes, Finset.mem_singleton] <;> exact StableHlo.devRef_ne_of_ne (by decide)

/-- An argument array is as launched when the call is entered. -/
theorem entry_eq (c : Dev nD) (b : Ref sig .tc) : entryAt m c b = m ((c : Thread nD τ).loc b) := rfl

/-! ## The windows' blocks -/

/-- Window w's block at grid point t, read off its array as the call finds it. -/
def block (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## The body: two whole-block copies -/

/-- The offsets of every access of the body: zero on each axis. -/
theorem zeros4 : (![0, 0, 0, 0] : Fin 4 → Nat) = fun _ => 0 := funext fun a => by fin_cases a <;> rfl

/-- A buffer stored whole with what a whole load of another buffer read, reads back as that other buffer's
    contents: the one store covers every index, and the load through the whole rectangle is the contents. -/
theorem read_after_whole_copy (a b : Memref sig .tc .vmem S1x256x32x128 .f32)
    (f : a.view.ty.Contents (Elt F)) (g : b.view.ty.Contents (Elt F)) :
    View.read (Elt F) b.view (b.view.writes (Elt F) g
        [⟨Rect.unit (s := S1x256x32x128) ![0, 0, 0, 0] S1x256x32x128.size inb_S1x256x32x128_S1x256x32x128_0_0_0_0,
          View.readAt (Elt F) a.view (Rect.unit (s := S1x256x32x128) ![0, 0, 0, 0] S1x256x32x128.size inb_S1x256x32x128_S1x256x32x128_0_0_0_0).toLoadRect f⟩])
      = View.read (Elt F) a.view f := by
  rw [View.read_writes_eq_canon _ _ _ (fun y => ⟨_, List.mem_singleton_self _, View.mem_set_unit_zero zeros4 inb_S1x256x32x128_S1x256x32x128_0_0_0_0 y⟩),
    View.canon_unit_zero zeros4, View.readAt_eq_ld, View.ld_unit_zero zeros4]

/-- On whole staging buffers, the inputs' at contents x0 and x1 and the results' at anything, the body ends with the
    inputs' buffers as they were and the results' holding x0 and x1: each result's buffer is loaded (the value is
    dropped) and then stored whole with what was loaded from the matching input. -/
theorem copy_body (c : Dev nD) (E : Set ℕ) (i : grid0.Coords)
    (arg2 : Memref sig .tc .vmem S1x256x32x128 .f32) (harg2 : arg2.IsWhole) (arg3 : Memref sig .tc .vmem S1x256x32x128 .f32) (harg3 : arg3.IsWhole)
    (arg4 : Memref sig .tc .vmem S1x256x32x128 .f32) (harg4 : arg4.IsWhole) (arg5 : Memref sig .tc .vmem S1x256x32x128 .f32) (harg5 : arg5.IsWhole)
    (x0 x1 : Vec F S1x256x32x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
              ∗ owns (c : Thread nD τ) arg4 fullShare x0 ∗ owns (c : Thread nD τ) arg5 fullShare x1) -∗ K ⟨⟩))
      ⊢ wp frame (wpE (defs₀ (F := F)) Variants.none c none) E (cc0__copy_kernel i arg2 harg2 arg3 harg3 arg4 harg4 arg5 harg5) K := by
  simp only [cc0__copy_kernel_eq_skeleton]; unfold cc0__copy_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_after_whole_copy arg2 arg4 f0 f2
  · iexists _; isplitr
    swap; · iexact H3
    ipureintro
    exact read_after_whole_copy arg3 arg5 f1 f3

/-! ## The pipeline's proof data -/

/-- On core c: the arrays as the call finds them; after the body at point t the two inputs' buffers hold their
    blocks and the two results' buffers hold the same two blocks; the invariant is the untouched rest (the scoped
    buffers no window stages, and the generator register); nothing is owed; full shares. -/
def copyData (_ : Fin 1) (c : Dev nD) : Dat τ (Elt F) Unit ℕ (UR sig nD τ) ℕ cfg0 c where
  A w := entryAt m c (Pipeline.arrRef spec0 w)
  after w t := match w with
    | ⟨0, _⟩ => block m c 0 t
    | ⟨1, _⟩ => block m c 1 t
    | ⟨2, _⟩ => block m c 0 t
    | ⟨3, _⟩ => block m c 1 t
  Φ _ := Pipeline.ΦA spec0 c
  q _ := fullShare
  owed _ := 0

theorem arrays_eq (c : Dev nD) (w : Fin cfg0.W) : (copyData m 0 c).A w = entryAt m c (Pipeline.arrRef spec0 w) := by
  dsimp only [copyData]

theorem after_0 (c : Dev nD) (t : Fin cfg0.N) : (copyData m 0 c).after 0 t = block m c 0 t := by dsimp only [copyData]
theorem after_1 (c : Dev nD) (t : Fin cfg0.N) : (copyData m 0 c).after 1 t = block m c 1 t := by dsimp only [copyData]
theorem after_2 (c : Dev nD) (t : Fin cfg0.N) : (copyData m 0 c).after 2 t = block m c 0 t := by dsimp only [copyData]
theorem after_3 (c : Dev nD) (t : Fin cfg0.N) : (copyData m 0 c).after 3 t = block m c 1 t := by dsimp only [copyData]

/-- An input's current staging buffer holds its block at every point: fetched there it is the block read off the
    array, and a point that does not fetch has the block index of the point before. -/
theorem found_0 (c : Dev nD) (t : Fin cfg0.N) (d) : (copyData m 0 c).before 0 t d = block m c 0 t :=
  ((copyData m 0 c).before_in_eq_fetched 0 rfl (fun _ => rfl) (fun _ _ _ => rfl)
      (fun t => by rw [after_0]; unfold Dat.blockOf block; rw [arrays_eq]; try rfl) t d).trans
    (by unfold Dat.fetched Dat.blockOf block; rw [arrays_eq]; try rfl)
theorem found_1 (c : Dev nD) (t : Fin cfg0.N) (d) : (copyData m 0 c).before 1 t d = block m c 1 t :=
  ((copyData m 0 c).before_in_eq_fetched 1 rfl (fun _ => rfl) (fun _ _ _ => rfl)
      (fun t => by rw [after_1]; unfold Dat.blockOf block; rw [arrays_eq]; try rfl) t d).trans
    (by unfold Dat.fetched Dat.blockOf block; rw [arrays_eq]; try rfl)

/-! ## The body obligation -/

/-- What the body is called with at point t, the windows one by one, -/
def bodyPre (c : Dev nD) (t : Fin cfg0.N) : sProp 𝕄 :=
  iprop((copyData m 0 c).Φ t.castSucc ∗ (copyData m 0 c).owesAt () t.castSucc
    ∗ (∃ d, owns (c : Thread nD τ) (st0_0 t) fullShare ((copyData m 0 c).before 0 t d))
    ∗ (∃ d, owns (c : Thread nD τ) (st0_1 t) fullShare ((copyData m 0 c).before 1 t d))
    ∗ (∃ d, owns (c : Thread nD τ) (st0_2 t) fullShare ((copyData m 0 c).before 2 t d))
    ∗ (∃ d, owns (c : Thread nD τ) (st0_3 t) fullShare ((copyData m 0 c).before 3 t d)))

/-- and what it returns. -/
def bodyPost (c : Dev nD) (t : Fin cfg0.N) : sProp 𝕄 :=
  iprop((copyData m 0 c).Φ t.succ ∗ (copyData m 0 c).owesAt () t.succ
    ∗ owns (c : Thread nD τ) (st0_0 t) fullShare ((copyData m 0 c).after 0 t)
    ∗ owns (c : Thread nD τ) (st0_1 t) fullShare ((copyData m 0 c).after 1 t)
    ∗ owns (c : Thread nD τ) (st0_2 t) fullShare ((copyData m 0 c).after 2 t)
    ∗ owns (c : Thread nD τ) (st0_3 t) fullShare ((copyData m 0 c).after 3 t))

/-- The body at any point: the inputs' buffers hold their blocks, whatever the results' hold; the body copies; the
    invariant and what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1]
  rw [show (copyData m 0 c).Φ t.succ = (copyData m 0 c).Φ t.castSucc from rfl,
    show (copyData m 0 c).owesAt () t.succ = (copyData m 0 c).owesAt () t.castSucc from rfl,
    after_0, after_1, after_2, after_3]
  iintro ⟨HΦ, Ho, ⟨%d0, H0⟩, ⟨%d1, H1⟩, ⟨%d2, H2⟩, ⟨%d3, H3⟩⟩
  iapply (copy_body c Set.univ (grid0.coords t) _ _ _ _ _ _ _ _ (block m c 0 t) (block m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (copyData (F := F) m 0 c) (defs₀ (F := F)) Variants.none () Set.univ := fun t => by
  rw [bigSep_W0, bigSep_W0]
  exact body_at m c t

/-! ## The run -/

-- the launch theorem's implicit arguments are found by unifying its conclusion with this statement, which takes
-- unfolding plain definitions in a metavariable's type
set_option backward.isDefEq.respectTransparency.types false in
/-- From any memory with zero counters every weakly fair execution of the program terminates, every array of the
    pipeline ending at what the write-backs leave and every other unscoped buffer as the trailing operations leave it. -/
theorem run_main : θ_run defs (onTc (τ := τ) (main (F := F))) (s₀ m ρ)
    (Pipeline.FramePost cfgs (copyData m) 0 (Pipeline.afterTail₀ cfgs (copyData m) 0 (entry m) [hostOps1])) :=
  Pipeline.θ_run_frame_around cfgs (copyData m) (0 : Fin 1) launch0 defs₀ Variants.none m ρ main
    (hbody := fun c => (body_obligation m c).loose) (hshare := fun c => (copyData m 0 c).share_full fun _ => rfl)
    (howed := fun _ _ => rfl) (V₀ := entry m) (opss := [hostOps1]) (hsub := tail_within) (hfresh := tail_allocates_nothing)
    (hkeep := tail_keeps_arrays) (hmain := call_then_tail m Variants.none) (hA := arrays_eq m) (hΦ := fun _ _ => rfl)

/-! ## The arguments end as launched -/

/-- A buffer that is no array of the pipeline and that no trailing operation writes ends at its launch contents. -/
theorem tail_keeps (b : Ref sig .tc) (hb : ∀ w, Pipeline.arrRef spec0 w ≠ b)
    (hw : ∀ op ∈ (List.flatten [hostOps1] : List (HloOp τ sig (Elt F))), Proc.devRef .tc b ∉ op.writes) (c : Dev nD) :
    Pipeline.afterTail₀ cfgs (copyData m) 0 (entry m) [hostOps1] c b = m ((c : Thread nD τ).loc b) := by
  unfold Pipeline.afterTail₀
  rw [StableHlo.after_of_forall_not_mem (b := Proc.devRef .tc b) _ _ hw, Pipeline.withArrays_of_ne _ c (entry m c) _ b hb]
  rfl

theorem writes_not_arg2 : ∀ op ∈ (List.flatten [hostOps1] : List (HloOp τ sig (Elt F))), Proc.devRef .tc main_arg2 ∉ op.writes :=
  List.forall_iff_forall_mem.mp (by
    simp only [hostOps1, List.flatten_cons, List.flatten_nil, List.append_nil, List.cons_append, List.nil_append, List.Forall,
      StableHlo.nullary_writes, StableHlo.binaryIndexed_writes, Finset.mem_singleton]
    repeat' apply And.intro
    all_goals exact StableHlo.devRef_ne_of_ne (by decide))
theorem writes_not_arg3 : ∀ op ∈ (List.flatten [hostOps1] : List (HloOp τ sig (Elt F))), Proc.devRef .tc main_arg3 ∉ op.writes :=
  List.forall_iff_forall_mem.mp (by
    simp only [hostOps1, List.flatten_cons, List.flatten_nil, List.append_nil, List.cons_append, List.nil_append, List.Forall,
      StableHlo.nullary_writes, StableHlo.binaryIndexed_writes, Finset.mem_singleton]
    repeat' apply And.intro
    all_goals exact StableHlo.devRef_ne_of_ne (by decide))

/-- The frame: the program runs to the end and the four argument arrays end as launched — the two caches are input
    arrays of the pipeline, which writes back no input; the two new rows are read, and only read, by the trailing
    operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).1 0).trans ((copyData (F := F) m 0 c).arrAt_in (0 : Fin 4) rfl _),
       ((h c).1 1).trans ((copyData (F := F) m 0 c).arrAt_in (1 : Fin 4) rfl _),
       ((h c).2 main_arg2 (Pipeline.mem_restRefs_of main_arg2 (by decide) (by decide))).trans
         (tail_keeps m main_arg2 (by decide) writes_not_arg2 c),
       ((h c).2 main_arg3 (Pipeline.mem_restRefs_of main_arg3 (by decide) (by decide))).trans
         (tail_keeps m main_arg3 (by decide) writes_not_arg3 c)⟩)
    (run_main m ρ)

end Cert.Kernel.Copy

end
-- ==== Proof.FrameKI.lean ====
/-
  The frame run of the idealized kernel's program, at any float interpretation.

  The program is one pallas_call followed by ten host operations. The call walks a grid of 8 x 16 points; at point
  (b, i) it stages rows 256 i .. 256 i + 255 of batch b of each of the two caches (a block of shape
  [1, 256, 32, 128]), and its body copies each staged block, whole, into the staging buffer of the matching result,
  which is then written back to the same rows of the result array [8, 4097, 32, 128]. The sixteen blocks of a batch
  are rows 0 .. 4095: row 4096 of a result array is never written by the call. The host operations that follow
  build four index scalars per result and overwrite the slice [0:8, 4096:4097, :, :] with the new row.

  Proved here: what the body leaves (each result's buffer holds the cache's block, the inputs' buffers keep theirs);
  the proof data of the pipeline; the body obligation at every point; and the run of the whole program, which ends
  with every array of the pipeline at what the write-backs leave and every other buffer as the trailing host
  operations leave it. The four argument arrays end as launched.
-/
import proofs.«176095_j45861660787371_2_alg».proof.Proof.Gen.KernelIdeal.Launch
import proofs.«176095_j45861660787371_2_alg».proof.Proof.Gen.KernelIdeal.Skeleton
import proofs.«176095_j45861660787371_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Copy

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program is the call followed by the trailing host operations -/

/-- What core c's buffers hold when the call is entered: no host operation comes before it, so the launch
    contents (written as the fold of the empty list of operations, the form the library's lemma concludes). -/
abbrev entry (c : Dev nD) : Valuation τ sig (Elt F) :=
  StableHlo.after (List.flatten ([] : List (List (HloOp τ sig (Elt F))))) (fun b => m (c, b))
/-- The same, read at a TensorCore reference. -/
abbrev entryAt (c : Dev nD) (b : Ref sig .tc) : Buf (Elt F) ((c : Thread nD τ).loc b) := entry m c (Proc.devRef .tc b)

/-- The trailing operations allocate nothing. -/
theorem tail_fresh : (hostOps1 : List (HloOp τ sig (Elt F))).Forall fun op => op.fresh = ∅ := by
  simp only [List.Forall]; repeat' constructor

/-- The program reduces to the call continued by the trailing operations. -/
theorem call_then_tail (𝒱₀ : Variants) :
    Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] trivial trivial main_chain

/-- The trailing operations touch only the pipeline's arrays and the buffers that bypass it. -/
theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- None of them writes an array of the pipeline: each index scalar and each updated array is a buffer of its own. -/
theorem tail_keeps_arrays : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl
  all_goals intro w; fin_cases w <;> simp only [StableHlo.nullary_writes, StableHlo.binaryIndexed_writes, Finset.mem_singleton] <;> exact StableHlo.devRef_ne_of_ne (by decide)

/-- An argument array is as launched when the call is entered. -/
theorem entry_eq (c : Dev nD) (b : Ref sig .tc) : entryAt m c b = m ((c : Thread nD τ).loc b) := rfl

/-! ## The windows' blocks -/

/-- Window w's block at grid point t, read off its array as the call finds it. -/
def block (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-! ## The body: two whole-block copies -/

/-- The offsets of every access of the body: zero on each axis. -/
theorem zeros4 : (![0, 0, 0, 0] : Fin 4 → Nat) = fun _ => 0 := funext fun a => by fin_cases a <;> rfl

/-- A buffer stored whole with what a whole load of another buffer read, reads back as that other buffer's
    contents: the one store covers every index, and the load through the whole rectangle is the contents. -/
theorem read_after_whole_copy (a b : Memref sig .tc .vmem S1x256x32x128 .f32)
    (f : a.view.ty.Contents (Elt F)) (g : b.view.ty.Contents (Elt F)) :
    View.read (Elt F) b.view (b.view.writes (Elt F) g
        [⟨Rect.unit (s := S1x256x32x128) ![0, 0, 0, 0] S1x256x32x128.size inb_S1x256x32x128_S1x256x32x128_0_0_0_0,
          View.readAt (Elt F) a.view (Rect.unit (s := S1x256x32x128) ![0, 0, 0, 0] S1x256x32x128.size inb_S1x256x32x128_S1x256x32x128_0_0_0_0).toLoadRect f⟩])
      = View.read (Elt F) a.view f := by
  rw [View.read_writes_eq_canon _ _ _ (fun y => ⟨_, List.mem_singleton_self _, View.mem_set_unit_zero zeros4 inb_S1x256x32x128_S1x256x32x128_0_0_0_0 y⟩),
    View.canon_unit_zero zeros4, View.readAt_eq_ld, View.ld_unit_zero zeros4]

/-- On whole staging buffers, the inputs' at contents x0 and x1 and the results' at anything, the body ends with the
    inputs' buffers as they were and the results' holding x0 and x1: each result's buffer is loaded (the value is
    dropped) and then stored whole with what was loaded from the matching input. -/
theorem copy_body (c : Dev nD) (E : Set ℕ) (i : grid0.Coords)
    (arg2 : Memref sig .tc .vmem S1x256x32x128 .f32) (harg2 : arg2.IsWhole) (arg3 : Memref sig .tc .vmem S1x256x32x128 .f32) (harg3 : arg3.IsWhole)
    (arg4 : Memref sig .tc .vmem S1x256x32x128 .f32) (harg4 : arg4.IsWhole) (arg5 : Memref sig .tc .vmem S1x256x32x128 .f32) (harg5 : arg5.IsWhole)
    (x0 x1 : Vec F S1x256x32x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
              ∗ owns (c : Thread nD τ) arg4 fullShare x0 ∗ owns (c : Thread nD τ) arg5 fullShare x1) -∗ K ⟨⟩))
      ⊢ wp frame (wpE (defs₀ (F := F)) Variants.none c none) E (cc0__copy_kernel i arg2 harg2 arg3 harg3 arg4 harg4 arg5 harg5) K := by
  simp only [cc0__copy_kernel_eq_skeleton]; unfold cc0__copy_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_after_whole_copy arg2 arg4 f0 f2
  · iexists _; isplitr
    swap; · iexact H3
    ipureintro
    exact read_after_whole_copy arg3 arg5 f1 f3

/-! ## The pipeline's proof data -/

/-- On core c: the arrays as the call finds them; after the body at point t the two inputs' buffers hold their
    blocks and the two results' buffers hold the same two blocks; the invariant is the untouched rest (the scoped
    buffers no window stages, and the generator register); nothing is owed; full shares. -/
def copyData (_ : Fin 1) (c : Dev nD) : Dat τ (Elt F) Unit ℕ (UR sig nD τ) ℕ cfg0 c where
  A w := entryAt m c (Pipeline.arrRef spec0 w)
  after w t := match w with
    | ⟨0, _⟩ => block m c 0 t
    | ⟨1, _⟩ => block m c 1 t
    | ⟨2, _⟩ => block m c 0 t
    | ⟨3, _⟩ => block m c 1 t
  Φ _ := Pipeline.ΦA spec0 c
  q _ := fullShare
  owed _ := 0

theorem arrays_eq (c : Dev nD) (w : Fin cfg0.W) : (copyData m 0 c).A w = entryAt m c (Pipeline.arrRef spec0 w) := by
  dsimp only [copyData]

theorem after_0 (c : Dev nD) (t : Fin cfg0.N) : (copyData m 0 c).after 0 t = block m c 0 t := by dsimp only [copyData]
theorem after_1 (c : Dev nD) (t : Fin cfg0.N) : (copyData m 0 c).after 1 t = block m c 1 t := by dsimp only [copyData]
theorem after_2 (c : Dev nD) (t : Fin cfg0.N) : (copyData m 0 c).after 2 t = block m c 0 t := by dsimp only [copyData]
theorem after_3 (c : Dev nD) (t : Fin cfg0.N) : (copyData m 0 c).after 3 t = block m c 1 t := by dsimp only [copyData]

/-- An input's current staging buffer holds its block at every point: fetched there it is the block read off the
    array, and a point that does not fetch has the block index of the point before. -/
theorem found_0 (c : Dev nD) (t : Fin cfg0.N) (d) : (copyData m 0 c).before 0 t d = block m c 0 t :=
  ((copyData m 0 c).before_in_eq_fetched 0 rfl (fun _ => rfl) (fun _ _ _ => rfl)
      (fun t => by rw [after_0]; unfold Dat.blockOf block; rw [arrays_eq]; try rfl) t d).trans
    (by unfold Dat.fetched Dat.blockOf block; rw [arrays_eq]; try rfl)
theorem found_1 (c : Dev nD) (t : Fin cfg0.N) (d) : (copyData m 0 c).before 1 t d = block m c 1 t :=
  ((copyData m 0 c).before_in_eq_fetched 1 rfl (fun _ => rfl) (fun _ _ _ => rfl)
      (fun t => by rw [after_1]; unfold Dat.blockOf block; rw [arrays_eq]; try rfl) t d).trans
    (by unfold Dat.fetched Dat.blockOf block; rw [arrays_eq]; try rfl)

/-! ## The body obligation -/

/-- What the body is called with at point t, the windows one by one, -/
def bodyPre (c : Dev nD) (t : Fin cfg0.N) : sProp 𝕄 :=
  iprop((copyData m 0 c).Φ t.castSucc ∗ (copyData m 0 c).owesAt () t.castSucc
    ∗ (∃ d, owns (c : Thread nD τ) (st0_0 t) fullShare ((copyData m 0 c).before 0 t d))
    ∗ (∃ d, owns (c : Thread nD τ) (st0_1 t) fullShare ((copyData m 0 c).before 1 t d))
    ∗ (∃ d, owns (c : Thread nD τ) (st0_2 t) fullShare ((copyData m 0 c).before 2 t d))
    ∗ (∃ d, owns (c : Thread nD τ) (st0_3 t) fullShare ((copyData m 0 c).before 3 t d)))

/-- and what it returns. -/
def bodyPost (c : Dev nD) (t : Fin cfg0.N) : sProp 𝕄 :=
  iprop((copyData m 0 c).Φ t.succ ∗ (copyData m 0 c).owesAt () t.succ
    ∗ owns (c : Thread nD τ) (st0_0 t) fullShare ((copyData m 0 c).after 0 t)
    ∗ owns (c : Thread nD τ) (st0_1 t) fullShare ((copyData m 0 c).after 1 t)
    ∗ owns (c : Thread nD τ) (st0_2 t) fullShare ((copyData m 0 c).after 2 t)
    ∗ owns (c : Thread nD τ) (st0_3 t) fullShare ((copyData m 0 c).after 3 t))

/-- The body at any point: the inputs' buffers hold their blocks, whatever the results' hold; the body copies; the
    invariant and what the core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1]
  rw [show (copyData m 0 c).Φ t.succ = (copyData m 0 c).Φ t.castSucc from rfl,
    show (copyData m 0 c).owesAt () t.succ = (copyData m 0 c).owesAt () t.castSucc from rfl,
    after_0, after_1, after_2, after_3]
  iintro ⟨HΦ, Ho, ⟨%d0, H0⟩, ⟨%d1, H1⟩, ⟨%d2, H2⟩, ⟨%d3, H3⟩⟩
  iapply (copy_body c Set.univ (grid0.coords t) _ _ _ _ _ _ _ _ (block m c 0 t) (block m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (copyData (F := F) m 0 c) (defs₀ (F := F)) Variants.none () Set.univ := fun t => by
  rw [bigSep_W0, bigSep_W0]
  exact body_at m c t

/-! ## The run -/

-- the launch theorem's implicit arguments are found by unifying its conclusion with this statement, which takes
-- unfolding plain definitions in a metavariable's type
set_option backward.isDefEq.respectTransparency.types false in
/-- From any memory with zero counters every weakly fair execution of the program terminates, every array of the
    pipeline ending at what the write-backs leave and every other unscoped buffer as the trailing operations leave it. -/
theorem run_main : θ_run defs (onTc (τ := τ) (main (F := F))) (s₀ m ρ)
    (Pipeline.FramePost cfgs (copyData m) 0 (Pipeline.afterTail₀ cfgs (copyData m) 0 (entry m) [hostOps1])) :=
  Pipeline.θ_run_frame_around cfgs (copyData m) (0 : Fin 1) launch0 defs₀ Variants.none m ρ main
    (hbody := fun c => (body_obligation m c).loose) (hshare := fun c => (copyData m 0 c).share_full fun _ => rfl)
    (howed := fun _ _ => rfl) (V₀ := entry m) (opss := [hostOps1]) (hsub := tail_within) (hfresh := tail_allocates_nothing)
    (hkeep := tail_keeps_arrays) (hmain := call_then_tail m Variants.none) (hA := arrays_eq m) (hΦ := fun _ _ => rfl)

/-! ## The arguments end as launched -/

/-- A buffer that is no array of the pipeline and that no trailing operation writes ends at its launch contents. -/
theorem tail_keeps (b : Ref sig .tc) (hb : ∀ w, Pipeline.arrRef spec0 w ≠ b)
    (hw : ∀ op ∈ (List.flatten [hostOps1] : List (HloOp τ sig (Elt F))), Proc.devRef .tc b ∉ op.writes) (c : Dev nD) :
    Pipeline.afterTail₀ cfgs (copyData m) 0 (entry m) [hostOps1] c b = m ((c : Thread nD τ).loc b) := by
  unfold Pipeline.afterTail₀
  rw [StableHlo.after_of_forall_not_mem (b := Proc.devRef .tc b) _ _ hw, Pipeline.withArrays_of_ne _ c (entry m c) _ b hb]
  rfl

theorem writes_not_arg2 : ∀ op ∈ (List.flatten [hostOps1] : List (HloOp τ sig (Elt F))), Proc.devRef .tc main_arg2 ∉ op.writes :=
  List.forall_iff_forall_mem.mp (by
    simp only [hostOps1, List.flatten_cons, List.flatten_nil, List.append_nil, List.cons_append, List.nil_append, List.Forall,
      StableHlo.nullary_writes, StableHlo.binaryIndexed_writes, Finset.mem_singleton]
    repeat' apply And.intro
    all_goals exact StableHlo.devRef_ne_of_ne (by decide))
theorem writes_not_arg3 : ∀ op ∈ (List.flatten [hostOps1] : List (HloOp τ sig (Elt F))), Proc.devRef .tc main_arg3 ∉ op.writes :=
  List.forall_iff_forall_mem.mp (by
    simp only [hostOps1, List.flatten_cons, List.flatten_nil, List.append_nil, List.cons_append, List.nil_append, List.Forall,
      StableHlo.nullary_writes, StableHlo.binaryIndexed_writes, Finset.mem_singleton]
    repeat' apply And.intro
    all_goals exact StableHlo.devRef_ne_of_ne (by decide))

/-- The frame: the program runs to the end and the four argument arrays end as launched — the two caches are input
    arrays of the pipeline, which writes back no input; the two new rows are read, and only read, by the trailing
    operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).1 0).trans ((copyData (F := F) m 0 c).arrAt_in (0 : Fin 4) rfl _),
       ((h c).1 1).trans ((copyData (F := F) m 0 c).arrAt_in (1 : Fin 4) rfl _),
       ((h c).2 main_arg2 (Pipeline.mem_restRefs_of main_arg2 (by decide) (by decide))).trans
         (tail_keeps m main_arg2 (by decide) writes_not_arg2 c),
       ((h c).2 main_arg3 (Pipeline.mem_restRefs_of main_arg3 (by decide) (by decide))).trans
         (tail_keeps m main_arg3 (by decide) writes_not_arg3 c)⟩)
    (run_main m ρ)

end Cert.KernelIdeal.Copy

end
-- ==== Proof.AppendRow.lean ====
/-
  Appending one row to a cache along axis 1, as a function of indices.

  A cache x of shape [8, 4096, 32, 128] and a row k of shape [8, 1, 32, 128] make the array [8, 4097, 32, 128]
  whose entry (b, r, h, d) is x (b, r, h, d) for r below 4096 and k (b, 0, h, d) at r = 4096. Two programs are
  shown to compute it: the concatenation of x and k along axis 1, and the overwrite of the slice
  [0:8, 4096:4097, :, :] of any array that already agrees with x on the rows below 4096.
-/
import Idealize.ShloMosaic.Lib.ValueIdx
import Idealize.ShloMosaic.Lib.Pipeline.Value

noncomputable section

namespace Cert.AppendRow

open Idealize.ShloMosaic Idealize.ShloMosaic.ValueIdx

abbrev SCache : Shape := ⟨4, ![8, 4096, 32, 128]⟩
abbrev SRow : Shape := ⟨4, ![8, 1, 32, 128]⟩
abbrev SOut : Shape := ⟨4, ![8, 4097, 32, 128]⟩

variable {α : Type}

/-- The cache index under an index of the longer array: the same coordinates, the row held at 4095 at most (so
    that it is an index of the cache for every row; only the rows below 4096 are ever read through it). -/
def cacheIdx (i : SOut.Idx) : SCache.Idx :=
  ix4 (⟨(i 0).val, (i 0).isLt⟩ : Fin 8) (⟨min (i 1).val 4095, by omega⟩ : Fin 4096)
    (⟨(i 2).val, (i 2).isLt⟩ : Fin 32) (⟨(i 3).val, (i 3).isLt⟩ : Fin 128)

/-- The index of the new row under an index of the longer array: the same batch, head and lane, row 0. -/
def rowIdx (i : SOut.Idx) : SRow.Idx :=
  ix4 (⟨(i 0).val, (i 0).isLt⟩ : Fin 8) (0 : Fin 1) (⟨(i 2).val, (i 2).isLt⟩ : Fin 32) (⟨(i 3).val, (i 3).isLt⟩ : Fin 128)

/-- The cache spread over the longer array (its last row repeated at row 4096). -/
def spread (x : SCache.Idx → α) : SOut.Idx → α := fun i => x (cacheIdx i)

/-- The cache with the row appended. -/
def appended (x : SCache.Idx → α) (k : SRow.Idx → α) : SOut.Idx → α :=
  fun i => if (i 1).val < 4096 then x (cacheIdx i) else k (rowIdx i)

/-- Concatenating the cache and the row along axis 1 appends the row: an index whose row is below 4096 falls in
    the first piece at the same coordinates, the row 4096 in the second piece at row 0. -/
theorem concatenate_eq_appended (x : SCache.Idx → α) (k : SRow.Idx → α) (h : Shape.Concatenates [SCache, SRow] SOut 1) :
    concatenate SOut 1 [⟨SCache, x⟩, ⟨SRow, k⟩] h = appended x k := by
  funext j
  have hj : (j 1).val < 4097 := (j 1).isLt
  unfold appended
  split
  · rename_i hlt
    refine concatenate_pair_apply_left (1 : Fin 4) x k h j rfl (cacheIdx j) (fun b => ?_)
    match b with
    | ⟨0, _⟩ => rfl
    | ⟨1, _⟩ => show min (j 1).val 4095 = (j 1).val; omega
    | ⟨2, _⟩ => rfl
    | ⟨3, _⟩ => rfl
  · rename_i hge
    refine concatenate_pair_apply_right (1 : Fin 4) x k h j rfl rfl (rowIdx j) (fun b hb => ?_) ?_
    · match b with
      | ⟨0, _⟩ => rfl
      | ⟨1, _⟩ => exact absurd rfl hb
      | ⟨2, _⟩ => rfl
      | ⟨3, _⟩ => rfl
    · show 0 + 4096 = (j 1).val; omega

/-- Overwriting the slice [0:8, 4096:4097, :, :] of an array that agrees with the cache on the rows below 4096
    appends the row: the start (0, 4096, 0, 0) is inside the clamp range, so the window is exactly row 4096. -/
theorem update_eq_appended (y : SOut.Idx → α) (x : SCache.Idx → α) (k : SRow.Idx → α) (start : Fin 4 → Int)
    (h : SOut.Slices (fun _ => 0) SRow) (hstart : start = ![0, 4096, 0, 0])
    (hy : ∀ i : SOut.Idx, (i 1).val < 4096 → y i = x (cacheIdx i)) :
    Host.dynamicUpdateSlice y k start h = appended x k := by
  subst hstart
  rw [Host.dynamicUpdateSlice_eq_updateSlice y k _ h ![0, 4096, 0, 0]
    (fun a => by match a with | ⟨0, _⟩ => rfl | ⟨1, _⟩ => rfl | ⟨2, _⟩ => rfl | ⟨3, _⟩ => rfl) (by decide)]
  funext i
  have hi : (i 1).val < 4097 := (i 1).isLt
  unfold updateSlice appended
  by_cases hlt : (i 1).val < 4096
  · rw [dif_neg (fun hin => by have := (hin (1 : Fin 4)).1; change 4096 ≤ (i 1).val at this; omega), if_pos hlt]
    exact hy i hlt
  · have hin : ∀ a : Fin SOut.rank, (![0, 4096, 0, 0] : Fin 4 → Nat) a ≤ (i a).val
        ∧ (i a).val < (![0, 4096, 0, 0] : Fin 4 → Nat) a + SRow.size (a.cast h.1.symm) := fun a => by
      match a with
      | ⟨0, _⟩ => exact ⟨Nat.zero_le _, by have h0 : (i 0).val < 8 := (i 0).isLt; show (i 0).val < 0 + 8; omega⟩
      | ⟨1, _⟩ => exact ⟨by show 4096 ≤ (i 1).val; omega, by show (i 1).val < 4096 + 1; omega⟩
      | ⟨2, _⟩ => exact ⟨Nat.zero_le _, by have h2 : (i 2).val < 32 := (i 2).isLt; show (i 2).val < 0 + 32; omega⟩
      | ⟨3, _⟩ => exact ⟨Nat.zero_le _, by have h3 : (i 3).val < 128 := (i 3).isLt; show (i 3).val < 0 + 128; omega⟩
    rw [dif_pos hin, if_neg hlt]
    refine congrArg k (funext fun b => Fin.ext ?_)
    match b with
    | ⟨0, _⟩ => show (i 0).val - 0 = (i 0).val; omega
    | ⟨1, _⟩ => show (i 1).val - 4096 = 0; omega
    | ⟨2, _⟩ => show (i 2).val - 0 = (i 2).val; omega
    | ⟨3, _⟩ => show (i 3).val - 0 = (i 3).val; omega

end Cert.AppendRow

end
-- ==== Proof.ResultKI.lean ====
/-
  What the idealized kernel's program leaves in its two result arrays, at any float interpretation: the cache with
  the new row appended.

  The pipeline's write-back at grid point (b, i) puts the staged block of the cache, rows 256 i .. 256 i + 255 of
  batch b, at the same rows of the result array. Every row below 4096 of every batch lies in exactly such a block,
  so after the call each result array agrees with its cache on the rows below 4096 (row 4096 keeps whatever the
  array held). The trailing host operations then overwrite the slice [0:8, 4096:4097, :, :] with the new row.
-/
import proofs.«176095_j45861660787371_2_alg».proof.Proof.FrameKI
import proofs.«176095_j45861660787371_2_alg».proof.Proof.AppendRow

set_option maxRecDepth 16384

noncomputable section

namespace Cert.KernelIdeal.Result

open Cert.KernelIdeal Cert.KernelIdeal.Gen Cert.KernelIdeal.Copy Cert.AppendRow
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-! ## The index maps, decided over the grid -/

/-- At every grid point the first result's block index is the first cache's, on the batch and row axes; both are
    zero on the head and lane axes; the batch index is below 8 and the row-block index below 16; and no block of
    the result is cut (every one lies inside the array: 16 blocks of 256 rows are rows 0 .. 4095 of 4097). -/
theorem maps_0 : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_2.index t (0 : Fin 4) ≤ 7 ∧ win0_2.index t (1 : Fin 4) ≤ 15
    ∧ win0_2.xsize (grid0.coords t) (0 : Fin 4) = 1 ∧ win0_2.xsize (grid0.coords t) (1 : Fin 4) = 256
    ∧ win0_2.xsize (grid0.coords t) (2 : Fin 4) = 32 ∧ win0_2.xsize (grid0.coords t) (3 : Fin 4) = 128 :=
  (by decide +kernel : ∀ t : Fin grid0.N, _)

/-- The same for the second cache and the second result. -/
theorem maps_1 : ∀ t : Fin cfg0.N,
    win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_3.index t (2 : Fin 4) = 0 ∧ win0_3.index t (3 : Fin 4) = 0
    ∧ win0_3.index t (0 : Fin 4) ≤ 7 ∧ win0_3.index t (1 : Fin 4) ≤ 15
    ∧ win0_3.xsize (grid0.coords t) (0 : Fin 4) = 1 ∧ win0_3.xsize (grid0.coords t) (1 : Fin 4) = 256
    ∧ win0_3.xsize (grid0.coords t) (2 : Fin 4) = 32 ∧ win0_3.xsize (grid0.coords t) (3 : Fin 4) = 128 :=
  (by decide +kernel : ∀ t : Fin grid0.N, _)

/-- Every (batch, row block) pair is some grid point's block index, for each result. -/
theorem point_of_block_0 : ∀ (q0 : Fin 8) (q1 : Fin 16), ∃ t : Fin cfg0.N,
    win0_2.index t (0 : Fin 4) = q0.val ∧ win0_2.index t (1 : Fin 4) = q1.val :=
  (by decide +kernel : ∀ (q0 : Fin 8) (q1 : Fin 16), ∃ t : Fin grid0.N,
    win0_2.index t (0 : Fin 4) = q0.val ∧ win0_2.index t (1 : Fin 4) = q1.val)
theorem point_of_block_1 : ∀ (q0 : Fin 8) (q1 : Fin 16), ∃ t : Fin cfg0.N,
    win0_3.index t (0 : Fin 4) = q0.val ∧ win0_3.index t (1 : Fin 4) = q1.val :=
  (by decide +kernel : ∀ (q0 : Fin 8) (q1 : Fin 16), ∃ t : Fin grid0.N,
    win0_3.index t (0 : Fin 4) = q0.val ∧ win0_3.index t (1 : Fin 4) = q1.val)

/-! ## What a point writes back -/

/-- What point t writes back to the first result is block t of the first cache spread over the result's shape:
    the staged block was read off the cache at the same batch and rows. -/
theorem written_back_0 (c : Dev nD) (t : Fin cfg0.N) :
    (copyData m 0 c).flushed 2 t
      = ((cfg0.win 2).blk t).view.read (Elt F) (spread (m ((c : Thread nD τ).loc main_arg0))) := by
  show (cfg0.win 2).cut (grid0.coords t) ((copyData m 0 c).after 2 t) = _
  rw [after_2]
  obtain ⟨e0, e1, e2, e3, e4, e5, b0, b1, s0, s1, s2, s3⟩ := maps_0 t
  funext j
  have j0 : (j 0).val < win0_2.xsize (grid0.coords t) (0 : Fin 4) := (j 0).isLt
  have j1 : (j 1).val < win0_2.xsize (grid0.coords t) (1 : Fin 4) := (j 1).isLt
  have j2 : (j 2).val < win0_2.xsize (grid0.coords t) (2 : Fin 4) := (j 2).isLt
  have j3 : (j 3).val < win0_2.xsize (grid0.coords t) (3 : Fin 4) := (j 3).isLt
  rw [s0] at j0; rw [s1] at j1; rw [s2] at j2; rw [s3] at j3
  show m ((c : Thread nD τ).loc main_arg0) (((cfg0.win 0).blk t).view.emb ((cfg0.win 2).xinj (grid0.coords t) j))
    = m ((c : Thread nD τ).loc main_arg0) (cacheIdx (((cfg0.win 2).blk t).view.emb j))
  refine congrArg _ (funext fun a => Fin.ext ?_)
  match a with
  | ⟨0, _⟩ =>
    show win0_0.index t (0 : Fin 4) * 1 + 1 * (j 0).val = win0_2.index t (0 : Fin 4) * 1 + 1 * (j 0).val
    omega
  | ⟨1, _⟩ =>
    show win0_0.index t (1 : Fin 4) * 256 + 1 * (j 1).val = min (win0_2.index t (1 : Fin 4) * 256 + 1 * (j 1).val) 4095
    omega
  | ⟨2, _⟩ =>
    show win0_0.index t (2 : Fin 4) * 32 + 1 * (j 2).val = win0_2.index t (2 : Fin 4) * 32 + 1 * (j 2).val
    omega
  | ⟨3, _⟩ =>
    show win0_0.index t (3 : Fin 4) * 128 + 1 * (j 3).val = win0_2.index t (3 : Fin 4) * 128 + 1 * (j 3).val
    omega

/-- The same for the second result and the second cache. -/
theorem written_back_1 (c : Dev nD) (t : Fin cfg0.N) :
    (copyData m 0 c).flushed 3 t
      = ((cfg0.win 3).blk t).view.read (Elt F) (spread (m ((c : Thread nD τ).loc main_arg1))) := by
  show (cfg0.win 3).cut (grid0.coords t) ((copyData m 0 c).after 3 t) = _
  rw [after_3]
  obtain ⟨e0, e1, e2, e3, e4, e5, b0, b1, s0, s1, s2, s3⟩ := maps_1 t
  funext j
  have j0 : (j 0).val < win0_3.xsize (grid0.coords t) (0 : Fin 4) := (j 0).isLt
  have j1 : (j 1).val < win0_3.xsize (grid0.coords t) (1 : Fin 4) := (j 1).isLt
  have j2 : (j 2).val < win0_3.xsize (grid0.coords t) (2 : Fin 4) := (j 2).isLt
  have j3 : (j 3).val < win0_3.xsize (grid0.coords t) (3 : Fin 4) := (j 3).isLt
  rw [s0] at j0; rw [s1] at j1; rw [s2] at j2; rw [s3] at j3
  show m ((c : Thread nD τ).loc main_arg1) (((cfg0.win 1).blk t).view.emb ((cfg0.win 3).xinj (grid0.coords t) j))
    = m ((c : Thread nD τ).loc main_arg1) (cacheIdx (((cfg0.win 3).blk t).view.emb j))
  refine congrArg _ (funext fun a => Fin.ext ?_)
  match a with
  | ⟨0, _⟩ =>
    show win0_1.index t (0 : Fin 4) * 1 + 1 * (j 0).val = win0_3.index t (0 : Fin 4) * 1 + 1 * (j 0).val
    omega
  | ⟨1, _⟩ =>
    show win0_1.index t (1 : Fin 4) * 256 + 1 * (j 1).val = min (win0_3.index t (1 : Fin 4) * 256 + 1 * (j 1).val) 4095
    omega
  | ⟨2, _⟩ =>
    show win0_1.index t (2 : Fin 4) * 32 + 1 * (j 2).val = win0_3.index t (2 : Fin 4) * 32 + 1 * (j 2).val
    omega
  | ⟨3, _⟩ =>
    show win0_1.index t (3 : Fin 4) * 128 + 1 * (j 3).val = win0_3.index t (3 : Fin 4) * 128 + 1 * (j 3).val
    omega

/-! ## Which indices a block holds -/

/-- An index of the first result array is in point t's block iff each coordinate is in the block's range on its axis. -/
theorem mem_block_0 (t : Fin cfg0.N) (i : S8x4097x32x128.Idx) :
    i ∈ ((cfg0.win 2).blk t).view.set ↔ ∀ a : Fin 4, win0_2.index t a * S1x256x32x128.size a ≤ (i a).val
      ∧ (i a).val < win0_2.index t a * S1x256x32x128.size a + win0_2.xsize (grid0.coords t) a := by
  show i ∈ ((View.whole main_call0_v0_0).slice (win0_2.rect t)).set ↔ _
  rw [View.set_slice_whole, Rect.mem_set_unit]
  exact Iff.rfl
theorem mem_block_1 (t : Fin cfg0.N) (i : S8x4097x32x128.Idx) :
    i ∈ ((cfg0.win 3).blk t).view.set ↔ ∀ a : Fin 4, win0_3.index t a * S1x256x32x128.size a ≤ (i a).val
      ∧ (i a).val < win0_3.index t a * S1x256x32x128.size a + win0_3.xsize (grid0.coords t) a := by
  show i ∈ ((View.whole main_call0_v0_1).slice (win0_3.rect t)).set ↔ _
  rw [View.set_slice_whole, Rect.mem_set_unit]
  exact Iff.rfl

/-! ## The result arrays after the call, on the rows below 4096 -/

/-- Row r < 4096 of batch b lies in the block of the point whose block index is (b, r / 256): after the
    write-backs the first result array holds the first cache there. -/
theorem rows_0 (c : Dev nD) (i : S8x4097x32x128.Idx) (h : (i 1).val < 4096) :
    (copyData m 0 c).arrAt 2 cfg0.N i = spread (m ((c : Thread nD τ).loc main_arg0)) i := by
  have i0 : (i 0).val < 8 := (i 0).isLt
  have i2 : (i 2).val < 32 := (i 2).isLt
  have i3 : (i 3).val < 128 := (i 3).isLt
  obtain ⟨t, q0, q1⟩ := point_of_block_0 ⟨(i 0).val, i0⟩ ⟨(i 1).val / 256, by omega⟩
  have q0' : win0_2.index t (0 : Fin 4) = (i 0).val := q0
  have q1' : win0_2.index t (1 : Fin 4) = (i 1).val / 256 := q1
  obtain ⟨e0, e1, e2, e3, e4, e5, b0, b1, s0, s1, s2, s3⟩ := maps_0 t
  refine (copyData m 0 c).arrAt_apply_of_mem 2 (spread (m ((c : Thread nD τ).loc main_arg0)))
    (fun t _ => written_back_0 m c t) cfg0.N t i t.isLt (flush0_2 t) ?_
  rw [mem_block_0]
  intro a
  match a with
  | ⟨0, _⟩ =>
    show win0_2.index t (0 : Fin 4) * 1 ≤ (i 0).val ∧ (i 0).val < win0_2.index t (0 : Fin 4) * 1 + win0_2.xsize (grid0.coords t) (0 : Fin 4)
    rw [s0]; omega
  | ⟨1, _⟩ =>
    show win0_2.index t (1 : Fin 4) * 256 ≤ (i 1).val ∧ (i 1).val < win0_2.index t (1 : Fin 4) * 256 + win0_2.xsize (grid0.coords t) (1 : Fin 4)
    rw [s1]; omega
  | ⟨2, _⟩ =>
    show win0_2.index t (2 : Fin 4) * 32 ≤ (i 2).val ∧ (i 2).val < win0_2.index t (2 : Fin 4) * 32 + win0_2.xsize (grid0.coords t) (2 : Fin 4)
    rw [s2]; omega
  | ⟨3, _⟩ =>
    show win0_2.index t (3 : Fin 4) * 128 ≤ (i 3).val ∧ (i 3).val < win0_2.index t (3 : Fin 4) * 128 + win0_2.xsize (grid0.coords t) (3 : Fin 4)
    rw [s3]; omega

theorem rows_1 (c : Dev nD) (i : S8x4097x32x128.Idx) (h : (i 1).val < 4096) :
    (copyData m 0 c).arrAt 3 cfg0.N i = spread (m ((c : Thread nD τ).loc main_arg1)) i := by
  have i0 : (i 0).val < 8 := (i 0).isLt
  have i2 : (i 2).val < 32 := (i 2).isLt
  have i3 : (i 3).val < 128 := (i 3).isLt
  obtain ⟨t, q0, q1⟩ := point_of_block_1 ⟨(i 0).val, i0⟩ ⟨(i 1).val / 256, by omega⟩
  have q0' : win0_3.index t (0 : Fin 4) = (i 0).val := q0
  have q1' : win0_3.index t (1 : Fin 4) = (i 1).val / 256 := q1
  obtain ⟨e0, e1, e2, e3, e4, e5, b0, b1, s0, s1, s2, s3⟩ := maps_1 t
  refine (copyData m 0 c).arrAt_apply_of_mem 3 (spread (m ((c : Thread nD τ).loc main_arg1)))
    (fun t _ => written_back_1 m c t) cfg0.N t i t.isLt (flush0_3 t) ?_
  rw [mem_block_1]
  intro a
  match a with
  | ⟨0, _⟩ =>
    show win0_3.index t (0 : Fin 4) * 1 ≤ (i 0).val ∧ (i 0).val < win0_3.index t (0 : Fin 4) * 1 + win0_3.xsize (grid0.coords t) (0 : Fin 4)
    rw [s0]; omega
  | ⟨1, _⟩ =>
    show win0_3.index t (1 : Fin 4) * 256 ≤ (i 1).val ∧ (i 1).val < win0_3.index t (1 : Fin 4) * 256 + win0_3.xsize (grid0.coords t) (1 : Fin 4)
    rw [s1]; omega
  | ⟨2, _⟩ =>
    show win0_3.index t (2 : Fin 4) * 32 ≤ (i 2).val ∧ (i 2).val < win0_3.index t (2 : Fin 4) * 32 + win0_3.xsize (grid0.coords t) (2 : Fin 4)
    rw [s2]; omega
  | ⟨3, _⟩ =>
    show win0_3.index t (3 : Fin 4) * 128 ≤ (i 3).val ∧ (i 3).val < win0_3.index t (3 : Fin 4) * 128 + win0_3.xsize (grid0.coords t) (3 : Fin 4)
    rw [s3]; omega

/-! ## After the trailing operations -/

/-- A new row is no array of the pipeline: the trailing operations read it as launched. -/
theorem exit_arg2 (c : Dev nD) :
    Pipeline.withArrays (cfgs 0).spec c (entry m c) (fun w => (copyData m 0 c).arrAt w (cfgs 0).N) (Proc.devRef .tc main_arg2)
      = m ((c : Thread nD τ).loc main_arg2) :=
  Pipeline.withArrays_of_ne _ c (entry m c) _ main_arg2 (by decide)
theorem exit_arg3 (c : Dev nD) :
    Pipeline.withArrays (cfgs 0).spec c (entry m c) (fun w => (copyData m 0 c).arrAt w (cfgs 0).N) (Proc.devRef .tc main_arg3)
      = m ((c : Thread nD τ).loc main_arg3) :=
  Pipeline.withArrays_of_ne _ c (entry m c) _ main_arg3 (by decide)

/-- The first result: the first update's operand is the first result array as the call left it, which agrees with
    the first cache on the rows below 4096; its four start scalars are the constants 0, 4096, 0, 0 written just
    before it; so the update appends the first new row to the first cache. -/
theorem result_0 (c : Dev nD) :
    Pipeline.afterTail₀ cfgs (copyData m) 0 (entry m) [hostOps1] c main_v0_0
      = appended (m ((c : Thread nD τ).loc main_arg0)) (m ((c : Thread nD τ).loc main_arg2)) := by
  unfold Pipeline.afterTail₀
  show StableHlo.after hostOps1 _ (Proc.devRef .tc main_v0_0) = _
  after_results
  change Host.dynamicUpdateSlice _ _ _ updateFits_S8x4097x32x128_S8x1x32x128 = _
  refine (update_eq_appended _ (m ((c : Thread nD τ).loc main_arg0)) _ _ updateFits_S8x4097x32x128_S8x1x32x128 ?_ ?_).trans
    (congrArg (appended (m ((c : Thread nD τ).loc main_arg0))) (exit_arg2 m c))
  · funext k
    match k with
    | ⟨0, _⟩ => rfl
    | ⟨1, _⟩ => rfl
    | ⟨2, _⟩ => rfl
    | ⟨3, _⟩ => rfl
  · intro i h
    exact (congrFun (Pipeline.withArrays_arr spec0 launch0.win.arr_inj c (entry m c)
      (fun w => (copyData m 0 c).arrAt w (cfgs 0).N) (2 : Fin 4)) i).trans (rows_0 m c i h)

/-- The second result, likewise. -/
theorem result_1 (c : Dev nD) :
    Pipeline.afterTail₀ cfgs (copyData m) 0 (entry m) [hostOps1] c main_v0_1
      = appended (m ((c : Thread nD τ).loc main_arg1)) (m ((c : Thread nD τ).loc main_arg3)) := by
  unfold Pipeline.afterTail₀
  show StableHlo.after hostOps1 _ (Proc.devRef .tc main_v0_1) = _
  after_results
  change Host.dynamicUpdateSlice _ _ _ updateFits_S8x4097x32x128_S8x1x32x128 = _
  refine (update_eq_appended _ (m ((c : Thread nD τ).loc main_arg1)) _ _ updateFits_S8x4097x32x128_S8x1x32x128 ?_ ?_).trans
    (congrArg (appended (m ((c : Thread nD τ).loc main_arg1))) (exit_arg3 m c))
  · funext k
    match k with
    | ⟨0, _⟩ => rfl
    | ⟨1, _⟩ => rfl
    | ⟨2, _⟩ => rfl
    | ⟨3, _⟩ => rfl
  · intro i h
    exact (congrFun (Pipeline.withArrays_arr spec0 launch0.win.arr_inj c (entry m c)
      (fun w => (copyData m 0 c).arrAt w (cfgs 0).N) (3 : Fin 4)) i).trans (rows_1 m c i h)

/-! ## The run, with the results named -/

/-- Every weakly fair execution of the program terminates with each result array at its cache with the new row
    appended, and the four arguments as launched. -/
theorem run : θ_run defs (onTc (τ := τ) (main (F := F))) ⟨m, fun _ => 0, ρ⟩ (fun r => ∀ c : Dev nD,
      r.2.mem ((c.tc : Thread nD τ).loc main_v0_0) = appended (m ((c.tc : Thread nD τ).loc main_arg0)) (m ((c.tc : Thread nD τ).loc main_arg2))
      ∧ r.2.mem ((c.tc : Thread nD τ).loc main_v0_1) = appended (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c).2 main_v0_0 (Pipeline.mem_restRefs_of main_v0_0 (by decide) (by decide))).trans (result_0 m c),
       ((h c).2 main_v0_1 (Pipeline.mem_restRefs_of main_v0_1 (by decide) (by decide))).trans (result_1 m c),
       ((h c).1 0).trans ((copyData (F := F) m 0 c).arrAt_in (0 : Fin 4) rfl _),
       ((h c).1 1).trans ((copyData (F := F) m 0 c).arrAt_in (1 : Fin 4) rfl _),
       ((h c).2 main_arg2 (Pipeline.mem_restRefs_of main_arg2 (by decide) (by decide))).trans
         (tail_keeps m main_arg2 (by decide) writes_not_arg2 c),
       ((h c).2 main_arg3 (Pipeline.mem_restRefs_of main_arg3 (by decide) (by decide))).trans
         (tail_keeps m main_arg3 (by decide) writes_not_arg3 c)⟩)
    (run_main m ρ)

end Cert.KernelIdeal.Result

end
-- ==== Proof.RefSide.lean ====
/-
  What the reference leaves in its two results: each cache with the new row appended.

  The reference is two concatenations along axis 1, of a cache [8, 4096, 32, 128] and a row [8, 1, 32, 128]. Its
  run ends with each result at the concatenation of the launch contents of its two operands, and a concatenation
  of these two shapes along axis 1 is the cache with the row appended, index by index.
-/
import proofs.«176095_j45861660787371_2_alg».proof.Proof.Gen.ReferenceIdeal.Run
import proofs.«176095_j45861660787371_2_alg».proof.Proof.AppendRow

noncomputable section

namespace Cert.ReferenceIdeal.Appended

open Cert.ReferenceIdeal Cert.ReferenceIdeal.Gen Cert.AppendRow
open Idealize.ShloMosaic Idealize.ShloMosaic.TcCoe Idealize.SL.Sem

variable {F : FTy → Type} [FloatOps F]

/-- Every weakly fair execution of the reference terminates with each result at its cache with the new row
    appended, and the four arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = appended (m ((c.tc : Thread nD τ).loc main_arg0)) (m ((c.tc : Thread nD τ).loc main_arg2))
      ∧ r.2.mem ((c.tc : Thread nD τ).loc main_v1) = appended (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans (concatenate_eq_appended _ _ _), (h c).2.1.trans (concatenate_eq_appended _ _ _), (h c).2.2⟩)
    (Cert.ReferenceIdeal.Value.run m ρ)

end Cert.ReferenceIdeal.Appended

end
-- ==== Proof.lean ====
/-
  The certificate of a key/value cache append.

  The kernel's program copies each of two caches [8, 4096, 32, 128] into rows 0 .. 4095 of a fresh array
  [8, 4097, 32, 128] (one pallas_call over a grid of 8 batches by 16 blocks of 256 rows, whose body is a whole-block
  copy), then overwrites row 4096 of each with the new key or value row. The reference concatenates each cache with
  its new row along axis 1. No arithmetic is done on either side: at every index both results are the cache's entry
  for a row below 4096 and the new row's entry at row 4096, so the two programs agree at any float interpretation
  and the precondition is never opened.

  The pieces: Proof/AppendRow.lean states the appended array as a function of indices and shows that both the
  concatenation and the overwrite of the last row compute it; Proof/FrameK.lean and Proof/FrameKI.lean run the
  kernel's program (as printed, and idealized: the same text) and show the arguments end unchanged;
  Proof/ResultKI.lean reads the two result arrays off that run; Proof/RefSide.lean reads the reference's.
-/
import proofs.«176095_j45861660787371_2_alg».proof.Defs
import proofs.«176095_j45861660787371_2_alg».proof.Proof.Gen.Kernel
import proofs.«176095_j45861660787371_2_alg».proof.Proof.Gen.KernelIdeal
import proofs.«176095_j45861660787371_2_alg».proof.Proof.Gen.ReferenceIdeal
import proofs.«176095_j45861660787371_2_alg».proof.Proof.Gen.Pre_finite_inputs
import proofs.«176095_j45861660787371_2_alg».proof.Proof.FrameK
import proofs.«176095_j45861660787371_2_alg».proof.Proof.ResultKI
import proofs.«176095_j45861660787371_2_alg».proof.Proof.RefSide
import Idealize.ShloMosaic.Adequacy
import Idealize.ShloMosaic.Init

noncomputable section

namespace Cert.Proof

open Idealize.ShloMosaic Idealize.ShloMosaic.TcCoe Idealize.SL.Sem Cert.AppendRow

/-- The kernel's program as printed runs to the end and leaves its four arguments unchanged. -/
theorem frame_kernel : Cert.frame_Kernel := fun m ρ _ => Cert.Kernel.Copy.frame m ρ

/-- So does its idealization. -/
theorem frame_ideal : Cert.frame_KernelIdeal := fun m ρ _ => Cert.KernelIdeal.Copy.frame m ρ

/-- So does the reference: its run, the results dropped. -/
theorem frame_reference : Cert.frame_ReferenceIdeal := fun m ρ _ =>
  (θ_run Cert.ReferenceIdeal.defs _ _).mono (fun _ h c => (h c).2.2) (Cert.ReferenceIdeal.Appended.run (F := Ideal) m ρ)

/-- The ideal pass rewrote nothing. -/
theorem preserves : Cert.preserves_Kernel_KernelIdeal := trivial

/-- From memories that agree on the arguments both programs end with each result at the cache with the new row
    appended: the same function of the same arguments. -/
theorem algebraic : Cert.algebraic_KernelIdeal_ReferenceIdeal := by
  intro m ρ m' ρ' _ hagree
  refine ⟨fun c => appended (m ((c.tc : Thread Cert.KernelIdeal.nD Cert.KernelIdeal.τ).loc Cert.KernelIdeal.main_arg0))
                            (m ((c.tc : Thread Cert.KernelIdeal.nD Cert.KernelIdeal.τ).loc Cert.KernelIdeal.main_arg2)),
          fun c => appended (m ((c.tc : Thread Cert.KernelIdeal.nD Cert.KernelIdeal.τ).loc Cert.KernelIdeal.main_arg1))
                            (m ((c.tc : Thread Cert.KernelIdeal.nD Cert.KernelIdeal.τ).loc Cert.KernelIdeal.main_arg3)),
          Cert.KernelIdeal.Result.run (F := Ideal) m ρ, ?_⟩
  refine (θ_run Cert.ReferenceIdeal.defs _ _).mono (fun _ h c => ⟨?_, ?_, (h c).2.2⟩)
    (Cert.ReferenceIdeal.Appended.run (F := Ideal) m' ρ')
  · rw [(h c).1, (hagree c).1, (hagree c).2.2.1]
  · rw [(h c).2.1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
